-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1024 : Shape := ⟨3, ![16, 512, 1024]⟩
abbrev S1024x1024 : Shape := ⟨2, ![1024, 1024]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x512x1024 .f32) (main_arg1 : FVec F S1024x1024 .f32) : IVec S_ 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16x512x1024 : Shape := ⟨3, ![16, 512, 1024]⟩
abbrev S1024x1024 : Shape := ⟨2, ![1024, 1024]⟩
abbrev S8192x1024 : Shape := ⟨2, ![8192, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16x512x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S16x512x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S2048x1024, .f32⟩
  | .local _ .vmem, ⟨4, _⟩ => ⟨S2048x1024, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x512x1024_S8192x1024 : S16x512x1024.ShapeCasts S8192x1024
  shapeCasts_S8192x1024_S16x512x1024 : S8192x1024.ShapeCasts S16x512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x1024.size a
  hwx0_2 : ∀ i : grid0.Coords, EltTy.bits .f32 = 32 ∨ (Rect.block (s := S8192x1024) S2048x1024.size (cc0_transform_2 i) (hinb0_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_call0_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x1024 : Shape := ⟨3, ![16, 512, 1024]⟩
abbrev S1024x1024 : Shape := ⟨2, ![1024, 1024]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S16x512x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S16x512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x512x1024_S8192x1024 : S16x512x1024.ShapeCasts S8192x1024
  shapeCasts_S8192x1024_S16x512x1024 : S8192x1024.ShapeCasts S16x512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x1024.size a
  hwx0_1 : ∀ i : grid0.Coords, EltTy.bits .f32 = 32 ∨ (Rect.block (s := S1024x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x1024.size a
  hwx0_2 : ∀ i : grid0.Coords, EltTy.bits .f32 = 32 ∨ (Rect.block (s := S8192x1024) S512x512.size (cc0_transform_2 i) (hinb0_2 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_call0_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibMatmulNT.lean ====
/-
  The product of an M×K matrix with the transpose of an N×K matrix on the extended reals, and the hardware matrix
  product with the dimension numbers "contract axis 1 of both operands" read at one entry: into a zero accumulator it
  is the plain sum over the K contracted positions of the products of the two rows' entries.
-/
import Idealize.ShloMosaic.Lib.ValueIdx
import Idealize.ShloMosaic.PureOps.Ideal.Laws

noncomputable section

open scoped BigOperators

namespace Cert.Lib.MatmulNT

open Idealize.ShloMosaic Idealize.ShloMosaic.ValueIdx

/-- `x · wᵀ`: entry (r, n) is the sum over k of `x (r, k) * w (n, k)`. -/
def mulNT {M N K : Nat} (x : (⟨2, ![M, K]⟩ : Shape).Idx → EReal) (w : (⟨2, ![N, K]⟩ : Shape).Idx → EReal) :
    (⟨2, ![M, N]⟩ : Shape).Idx → EReal :=
  fun i => ∑ c : Fin K, x (ix2 (i 0 : Fin M) c) * w (ix2 (i 1 : Fin N) c)

theorem mulNT_apply {M N K : Nat} (x : (⟨2, ![M, K]⟩ : Shape).Idx → EReal) (w : (⟨2, ![N, K]⟩ : Shape).Idx → EReal)
    (a : Fin M) (b : Fin N) : mulNT x w (ix2 a b) = ∑ c : Fin K, x (ix2 a c) * w (ix2 b c) := rfl

/-- A matrix product contracting axis 1 of an M×K operand with axis 1 of an N×K operand, accumulated into the zero
    splat, read at entry (a, b) at the ideal values: the contraction index has one axis of extent K, and at position c
    the left operand is read at (a, c), the right one at (b, c). -/
theorem matmul_zero_nt_apply {M N K : Nat} {φ₁ φ₂ : FTy}
    (wf : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    FloatOps.matmul (⟨[1], [1], [0], [0], [], [], wf⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun c _ => ?_
  have hc := contrEquiv1_symm_val
    (⟨[1], [1], [0], [0], [], [], wf⟩ : DotDims ⟨2, ![M, K]⟩ ⟨2, ![N, K]⟩ ⟨2, ![M, N]⟩) K rfl rfl c
  have hl : (⟨[1], [1], [0], [0], [], [], wf⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], wf⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.Lib.MatmulNT

end
-- ==== Proof.KernelPayload.lean ====
/-
  The kernel body's one stored value, entry by entry: the rounding to bf16 on the way into the matrix unit is the
  identity on the extended reals and the product is accumulated into zero, so entry (p, q) of the 2048×1024 block is the
  sum over k of  x (p, k) · w (q, k)  — the block of x times the transpose of the whole weight.
-/
import proofs.«117460_g2000609681996289_pallasbulk_431_10_alg».proof.Proof.Gen.KernelIdeal.Skeleton
import proofs.«117460_g2000609681996289_pallasbulk_431_10_alg».proof.Proof.LibMatmulNT
import Idealize.ShloMosaic.Lib.Pipeline.Value

noncomputable section

namespace Cert.KernelIdeal.Bridge

open Idealize.ShloMosaic Idealize.ShloMosaic.ValueIdx Cert.KernelIdeal Cert.KernelIdeal.Gen Cert.Lib.MatmulNT

/-- The stored value is the row block times the transposed weight. -/
theorem pay_eq (x0 : Vec Ideal S2048x1024 .f32) (x1 : Vec Ideal S1024x1024 .f32) :
    k0_pay1 (F := Ideal) x0 x1 = mulNT x0 x1 := by
  funext j
  obtain ⟨p, q, rfl⟩ : ∃ (p : Fin 2048) (q : Fin 1024), j = ix2 p q := ⟨j 0, j 1, eq_ix2 j⟩
  unfold k0_pay1
  refine (matmul_zero_nt_apply _ none _ _ p q).trans ?_
  rw [mulNT_apply]
  refine Finset.sum_congr rfl fun c _ => ?_
  rw [truncf_apply, truncf_apply, shapeCast_self]

end Cert.KernelIdeal.Bridge

end
-- ==== Proof.KernelBlocks.lean ====
/-
  The array the kernel's region leaves.  The grid has four points; point t reads rows 2048·t … 2048·t + 2047 of the
  flattened input and the whole weight, and writes the same rows of the result.  So what point t writes back is the
  t-th row block of  x₂ · wᵀ  (x₂ the 8192×1024 flattening of the input as the region finds it), the four blocks tile the
  result, and the result array ends holding  x₂ · wᵀ  everywhere.
-/
import proofs.«117460_g2000609681996289_pallasbulk_431_10_alg».proof.Proof.Gen.KernelIdeal.Frame
import proofs.«117460_g2000609681996289_pallasbulk_431_10_alg».proof.Proof.KernelPayload
import Idealize.ShloMosaic.Lib.Pipeline.Value

noncomputable section

open Idealize.ShloMosaic Idealize.ShloMosaic.TcCoe Idealize.SL.Sem
open Idealize.ShloMosaic.Pipeline (Dat)

namespace Cert.KernelIdeal.Bridge

open Idealize.ShloMosaic.ValueIdx Cert.KernelIdeal Cert.KernelIdeal.Gen Cert.Lib.MatmulNT

variable (m : (ℓ : Loc nD τ sig) → Buf (Elt Ideal) ℓ)

theorem hz : (![0, 0] : Fin 2 → Nat) = fun _ => 0 := funext fun a => by fin_cases a <;> rfl

/-- The flattened input times the transposed weight, as the region finds the two arrays. -/
abbrev prod (c : Dev nD) : S8192x1024.Idx → EReal :=
  mulNT (M := 8192) (N := 1024) (K := 1024) (V m c main_call0_v0) (V m c main_arg1)

/-- The printed index maps over the grid: the input's row block moves with the output's, every other block index is 0,
    and the output's row block index is at most 3. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every row block of the result is some point's. -/
theorem idx_onto : ∀ (q0 : Fin 4), ∃ t : Fin cfg0.N, win0_2.index t = ![q0.val, 0] :=
  (by decide +kernel : ∀ (q0 : Fin 4), ∃ t : Fin grid0.N, win0_2.index t = ![q0.val, 0])

/-- The input window's block at point t is rows 2048·(block index) … of the flattened input. -/
theorem iblk0_apply (c : Dev nD) (t : Fin cfg0.N) (x : S2048x1024.Idx) (k : S8192x1024.Idx)
    (hk0 : (k 0).val = win0_2.index t (0 : Fin 2) * 2048 + (x 0).val) (hk1 : (k 1).val = (x 1).val) :
    (iblk m c 0 t : Vec Ideal S2048x1024 .f32) x = (V m c main_call0_v0 : S8192x1024.Idx → EReal) k := by
  obtain ⟨e0, e1, e2, e3, e4, e5⟩ := idx_facts t
  unfold iblk
  rw [View.read_apply]
  show V m c main_call0_v0 _ = V m c main_call0_v0 _
  refine congrArg (V m c main_call0_v0) ?_
  funext a
  apply Fin.ext
  match a with
  | ⟨0, _⟩ => show win0_0.index t (0 : Fin 2) * 2048 + 1 * (x 0).val = (k 0).val; rw [hk0]; omega
  | ⟨1, _⟩ => show win0_0.index t (1 : Fin 2) * 1024 + 1 * (x 1).val = (k 1).val; rw [hk1]; omega

/-- The weight window's block at every point is the whole weight. -/
theorem iblk1_apply (c : Dev nD) (t : Fin cfg0.N) (x : S1024x1024.Idx) :
    (iblk m c 1 t : Vec Ideal S1024x1024 .f32) x = (V m c main_arg1 : S1024x1024.Idx → EReal) x := by
  obtain ⟨e0, e1, e2, e3, e4, e5⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 2) * 1024 + 1 * (x 0).val = (x 0).val; omega
  | ⟨1, _⟩ => show win0_1.index t (1 : Fin 2) * 1024 + 1 * (x 1).val = (x 1).val; omega

/-- What point t writes back is its row block of the product. -/
theorem flushed_eq (c : Dev nD) (t : Fin cfg0.N) :
    (dats m 0 c).flushed 2 t = ((cfg0.win 2).blk t).view.read (Elt Ideal) (prod m c) := by
  show (cfg0.win 2).cut (grid0.coords t) ((dats m 0 c).after 2 t) = _
  rw [after0_2]
  unfold out0_2
  rw [View.canon_unit_zero hz]
  simp only [View.ld_unit_zero (S := S2048x1024) hz, View.ld_unit_zero (S := S1024x1024) hz]
  rw [pay_eq]
  funext j
  obtain ⟨e0, e1, e2, e3, e4, e5⟩ := idx_facts t
  show mulNT (M := 2048) (N := 1024) (K := 1024) (iblk m c 0 t) (iblk m c 1 t) j
    = mulNT (M := 8192) (N := 1024) (K := 1024) (V m c main_call0_v0) (V m c main_arg1) (((cfg0.win 2).blk t).view.emb j)
  unfold mulNT
  refine Finset.sum_congr rfl fun k _ => ?_
  refine congrArg₂ (· * ·) ?_ ?_
  · refine iblk0_apply m c t _ _ ?_ rfl
    show win0_2.index t (0 : Fin 2) * 2048 + 1 * (j 0).val = win0_2.index t (0 : Fin 2) * 2048 + (j 0).val
    omega
  · refine (iblk1_apply m c t _).trans (congrArg (V m c main_arg1) ?_)
    funext a
    apply Fin.ext
    match a with
    | ⟨0, _⟩ => show (j 1).val = win0_2.index t (1 : Fin 2) * 1024 + 1 * (j 1).val; omega
    | ⟨1, _⟩ => rfl

/-- An index of the result is in point t's block iff each coordinate is in the block's range on its axis. -/
theorem mem_blk (t : Fin cfg0.N) (i : S8192x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_call0_v1).slice (win0_2.rect t)).set ↔ _
  rw [View.set_slice_whole, Rect.mem_set_unit]
  exact Iff.rfl

/-- Every index of the result lies in the block of the point whose row block index is (row / 2048). -/
theorem cover (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- The result array of the region ends holding the product. -/
theorem final (c : Dev nD) : (dats m 0 c).arrAt 2 cfg0.N = prod m c :=
  (dats m 0 c).arrAt_eq_of_cover 2 (prod m c) (fun t _ => flushed_eq m c t) cover

end Cert.KernelIdeal.Bridge

end
-- ==== Proof.Spec.lean ====
/-
  What both programs compute, as one function of the two argument arrays on the extended reals: flatten the
  16×512×1024 input to 8192×1024 (row-major), multiply by the transpose of the 1024×1024 weight — entry (r, n) is the
  sum over k of  x₂ (r, k) · w (n, k)  — and give the product the input's three-axis shape back.
-/
import proofs.«117460_g2000609681996289_pallasbulk_431_10_alg».proof.Proof.LibMatmulNT

noncomputable section

namespace Cert.Spec

open Idealize.ShloMosaic Cert.Lib.MatmulNT

abbrev SIn : Shape := ⟨3, ![16, 512, 1024]⟩
abbrev SFlat : Shape := ⟨2, ![8192, 1024]⟩
abbrev SWeight : Shape := ⟨2, ![1024, 1024]⟩

/-- `reshape ((reshape x) · wᵀ)`; the two reshapes are carried as they are and never opened: both programs apply
    the same ones. -/
def result (h1 : SIn.ShapeCasts SFlat) (h2 : SFlat.ShapeCasts SIn) (x : SIn.Idx → EReal) (w : SWeight.Idx → EReal) :
    SIn.Idx → EReal :=
  shapeCast SIn (mulNT (M := 8192) (N := 1024) (K := 1024) (shapeCast SFlat x h1) w) h2

end Cert.Spec

end
-- ==== Proof.KernelRun.lean ====
/-
  The kernel's whole run read as a value.  Before the region the host flattens the input, so the region finds the
  8192×1024 flattening in its first window's array; the region leaves the product with the transposed weight; after the
  region the host gives the product the input's shape.  The run therefore ends with the result array at
  reshape ((reshape x) · wᵀ)  and both arguments as they were.
-/
import proofs.«117460_g2000609681996289_pallasbulk_431_10_alg».proof.Proof.KernelBlocks
import proofs.«117460_g2000609681996289_pallasbulk_431_10_alg».proof.Proof.Spec
import Idealize.ShloMosaic.Lib.StableHlo.Run

noncomputable section

open Idealize.ShloMosaic Idealize.ShloMosaic.TcCoe Idealize.SL.Sem
open Idealize.ShloMosaic.Pipeline (Dat)

namespace Cert.KernelIdeal.Bridge

open Idealize.ShloMosaic.ValueIdx Cert.KernelIdeal Cert.KernelIdeal.Gen Cert.Lib.MatmulNT

variable (m : (ℓ : Loc nD τ sig) → Buf (Elt Ideal) ℓ) (ρ : Dev nD → PrngReg)

/-- The region finds the flattened input in its first window's array. -/
theorem entry_flat (c : Dev nD) :
    (V m c main_call0_v0 : S8192x1024.Idx → EReal)
      = shapeCast S8192x1024 (m ((c : Thread nD τ).loc main_arg0)) shapeCasts_S16x512x1024_S8192x1024 := by
  show StableHlo.after hostOps0 (fun b => m (c, b)) (Proc.devRef .tc main_call0_v0) = _
  after_results
  rfl

/-- The host line after the region reshapes what the region left. -/
theorem tail_result (c : Dev nD) :
    Pipeline.afterTail₀ cfgs (dats m) 0 (V0 m) [hostOps1] c main_v0
      = Cert.Spec.result shapeCasts_S16x512x1024_S8192x1024 shapeCasts_S8192x1024_S16x512x1024
          (m ((c : Thread nD τ).loc main_arg0)) (m ((c : Thread nD τ).loc main_arg1)) := by
  unfold Pipeline.afterTail₀
  show StableHlo.after hostOps1 _ (Proc.devRef .tc main_v0) = _
  after_results
  have hw : Pipeline.withArrays (cfgs 0).spec c (V0 m c) (fun w => (dats m 0 c).arrAt w (cfgs 0).N)
      (Proc.devRef .tc main_call0_v1) = prod m c :=
    (Pipeline.withArrays_arr spec0 launch0.win.arr_inj c _ _ 2).trans (final m c)
  show shapeCast S16x512x1024 (Pipeline.withArrays (cfgs 0).spec c (V0 m c) (fun w => (dats m 0 c).arrAt w (cfgs 0).N)
      (Proc.devRef .tc main_call0_v1)) shapeCasts_S8192x1024_S16x512x1024 = _
  rw [hw]
  unfold Cert.Spec.result prod
  rw [entry_flat m c, V_main_arg1 m c]

/-- The run, read: the result array at the reshaped product of the flattened input with the transposed weight, both
    arguments unchanged. -/
theorem run : θ_run defs (onTc (τ := τ) (main (F := Ideal))) ⟨m, fun _ => 0, ρ⟩ fun r => ∀ c : Dev nD,
      r.2.mem ((c : Thread nD τ).loc main_v0)
        = Cert.Spec.result shapeCasts_S16x512x1024_S8192x1024 shapeCasts_S8192x1024_S16x512x1024
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v0 (Pipeline.mem_restRefs_of main_v0 (by decide) (by decide))).trans (tail_result m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Bridge

end
-- ==== Proof.ReferencePayload.lean ====
/-
  The reference kernel body's one stored value, entry by entry: a 512×1024 row block of the flattened input against a
  512×1024 row block of the weight, contracted on their last axes into a zero accumulator.  Entry (p, q) of the 512×512
  block is the sum over k of  x (p, k) · w (q, k).
-/
import proofs.«117460_g2000609681996289_pallasbulk_431_10_alg».proof.Proof.Gen.ReferenceIdeal.Skeleton
import proofs.«117460_g2000609681996289_pallasbulk_431_10_alg».proof.Proof.LibMatmulNT
import Idealize.ShloMosaic.Lib.Pipeline.Value

noncomputable section

namespace Cert.ReferenceIdeal.Bridge

open Idealize.ShloMosaic Idealize.ShloMosaic.ValueIdx Cert.ReferenceIdeal Cert.ReferenceIdeal.Gen Cert.Lib.MatmulNT

/-- The stored value is the input's row block times the transposed row block of the weight. -/
theorem pay_eq (x0 : Vec Ideal S512x1024 .f32) (x1 : Vec Ideal S512x1024 .f32) :
    k0_pay1 (F := Ideal) x0 x1 = mulNT x0 x1 := by
  funext j
  obtain ⟨p, q, rfl⟩ : ∃ (p : Fin 512) (q : Fin 512), j = ix2 p q := ⟨j 0, j 1, eq_ix2 j⟩
  unfold k0_pay1
  refine (matmul_zero_nt_apply _ none _ _ p q).trans ?_
  rw [mulNT_apply]
  refine Finset.sum_congr rfl fun c _ => ?_
  rw [shapeCast_self]

end Cert.ReferenceIdeal.Bridge

end
-- ==== Proof.ReferenceBlocks.lean ====
/-
  The array the reference's region leaves.  The grid is 16 × 2: point (a, b) reads rows 512·a … 512·a + 511 of the
  flattened input and rows 512·b … 512·b + 511 of the weight, and writes the 512×512 tile of the result at rows 512·a …,
  columns 512·b ….  Entry (r, n) of  x₂ · wᵀ  uses row r of x₂ and row n of w only, so the tile point (a, b) writes back is
  that tile of  x₂ · wᵀ ; the 32 tiles fill the 8192×1024 result, which therefore ends holding  x₂ · wᵀ  everywhere.
-/
import proofs.«117460_g2000609681996289_pallasbulk_431_10_alg».proof.Proof.Gen.ReferenceIdeal.Frame
import proofs.«117460_g2000609681996289_pallasbulk_431_10_alg».proof.Proof.ReferencePayload
import Idealize.ShloMosaic.Lib.Pipeline.Value

noncomputable section

open Idealize.ShloMosaic Idealize.ShloMosaic.TcCoe Idealize.SL.Sem
open Idealize.ShloMosaic.Pipeline (Dat)

namespace Cert.ReferenceIdeal.Bridge

open Idealize.ShloMosaic.ValueIdx Cert.ReferenceIdeal Cert.ReferenceIdeal.Gen Cert.Lib.MatmulNT

variable (m : (ℓ : Loc nD τ sig) → Buf (Elt Ideal) ℓ)

theorem hz : (![0, 0] : Fin 2 → Nat) = fun _ => 0 := funext fun a => by fin_cases a <;> rfl

/-- The flattened input times the transposed weight, as the region finds the two arrays. -/
abbrev prod (c : Dev nD) : S8192x1024.Idx → EReal :=
  mulNT (M := 8192) (N := 1024) (K := 1024) (V m c main_call0_v0) (V m c main_arg1)

/-- The printed index maps over the grid: the input's row block is the output tile's row index, the weight's row block
    the output tile's column index, the two inputs' column block index is 0, and the tile indices stay in range. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15
    ∧ win0_2.index t (1 : Fin 2) ≤ 1 :=
  (by decide +kernel : ∀ t : Fin grid0.N, _)

/-- Every tile of the result is some point's. -/
theorem idx_onto : ∀ (q0 : Fin 16) (q1 : Fin 2), ∃ t : Fin cfg0.N, win0_2.index t = ![q0.val, q1.val] :=
  (by decide +kernel : ∀ (q0 : Fin 16) (q1 : Fin 2), ∃ t : Fin grid0.N, win0_2.index t = ![q0.val, q1.val])

/-- The input window's block at point t is rows 512·(tile row index) … of the flattened input. -/
theorem iblk0_apply (c : Dev nD) (t : Fin cfg0.N) (x : S512x1024.Idx) (k : S8192x1024.Idx)
    (hk0 : (k 0).val = win0_2.index t (0 : Fin 2) * 512 + (x 0).val) (hk1 : (k 1).val = (x 1).val) :
    (iblk m c 0 t : Vec Ideal S512x1024 .f32) x = (V m c main_call0_v0 : S8192x1024.Idx → EReal) k := by
  obtain ⟨e0, e1, e2, e3, e4, e5⟩ := idx_facts t
  unfold iblk
  rw [View.read_apply]
  show V m c main_call0_v0 _ = V m c main_call0_v0 _
  refine congrArg (V m c main_call0_v0) ?_
  funext a
  apply Fin.ext
  match a with
  | ⟨0, _⟩ => show win0_0.index t (0 : Fin 2) * 512 + 1 * (x 0).val = (k 0).val; rw [hk0]; omega
  | ⟨1, _⟩ => show win0_0.index t (1 : Fin 2) * 1024 + 1 * (x 1).val = (k 1).val; rw [hk1]; omega

/-- The weight window's block at point t is rows 512·(tile column index) … of the weight. -/
theorem iblk1_apply (c : Dev nD) (t : Fin cfg0.N) (x : S512x1024.Idx) (k : S1024x1024.Idx)
    (hk0 : (k 0).val = win0_2.index t (1 : Fin 2) * 512 + (x 0).val) (hk1 : (k 1).val = (x 1).val) :
    (iblk m c 1 t : Vec Ideal S512x1024 .f32) x = (V m c main_arg1 : S1024x1024.Idx → EReal) k := by
  obtain ⟨e0, e1, e2, e3, e4, e5⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 2) * 512 + 1 * (x 0).val = (k 0).val; rw [hk0]; omega
  | ⟨1, _⟩ => show win0_1.index t (1 : Fin 2) * 1024 + 1 * (x 1).val = (k 1).val; rw [hk1]; omega

/-- What point t writes back is its tile of the product. -/
theorem flushed_eq (c : Dev nD) (t : Fin cfg0.N) :
    (dats m 0 c).flushed 2 t = ((cfg0.win 2).blk t).view.read (Elt Ideal) (prod m c) := by
  show (cfg0.win 2).cut (grid0.coords t) ((dats m 0 c).after 2 t) = _
  rw [after0_2]
  unfold out0_2
  rw [View.canon_unit_zero hz]
  simp only [View.ld_unit_zero (S := S512x1024) hz]
  rw [pay_eq]
  funext j
  show mulNT (M := 512) (N := 512) (K := 1024) (iblk m c 0 t) (iblk m c 1 t) j
    = mulNT (M := 8192) (N := 1024) (K := 1024) (V m c main_call0_v0) (V m c main_arg1) (((cfg0.win 2).blk t).view.emb j)
  unfold mulNT
  refine Finset.sum_congr rfl fun k _ => ?_
  refine congrArg₂ (· * ·) ?_ ?_
  · refine iblk0_apply m c t _ _ ?_ rfl
    show win0_2.index t (0 : Fin 2) * 512 + 1 * (j 0).val = win0_2.index t (0 : Fin 2) * 512 + (j 0).val
    omega
  · refine iblk1_apply m c t _ _ ?_ rfl
    show win0_2.index t (1 : Fin 2) * 512 + 1 * (j 1).val = win0_2.index t (1 : Fin 2) * 512 + (j 1).val
    omega

/-- An index of the result is in point t's tile iff each coordinate is in the tile's range on its axis. -/
theorem mem_blk (t : Fin cfg0.N) (i : S8192x1024.Idx) :
    i ∈ ((cfg0.win 2).blk t).view.set ↔ ∀ a : Fin 2, win0_2.index t a * S512x512.size a ≤ (i a).val ∧ (i a).val < win0_2.index t a * S512x512.size a + S512x512.size a := by
  show i ∈ ((View.whole main_call0_v1).slice (win0_2.rect t)).set ↔ _
  rw [View.set_slice_whole, Rect.mem_set_unit]
  exact Iff.rfl

/-- Every index of the result lies in the tile of the point with tile indices (row / 512, column / 512). -/
theorem cover (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The result array of the region ends holding the product. -/
theorem final (c : Dev nD) : (dats m 0 c).arrAt 2 cfg0.N = prod m c :=
  (dats m 0 c).arrAt_eq_of_cover 2 (prod m c) (fun t _ => flushed_eq m c t) cover

end Cert.ReferenceIdeal.Bridge

end
-- ==== Proof.ReferenceRun.lean ====
/-
  The reference's whole run read as a value.  Before the region the host flattens the input; the region leaves the
  product of the flattening with the transposed weight; after the region the host gives the product the input's shape.
  The run therefore ends with the result array at  reshape ((reshape x) · wᵀ)  and both arguments as they were.
-/
import proofs.«117460_g2000609681996289_pallasbulk_431_10_alg».proof.Proof.ReferenceBlocks
import proofs.«117460_g2000609681996289_pallasbulk_431_10_alg».proof.Proof.Spec
import Idealize.ShloMosaic.Lib.StableHlo.Run

noncomputable section

open Idealize.ShloMosaic Idealize.ShloMosaic.TcCoe Idealize.SL.Sem
open Idealize.ShloMosaic.Pipeline (Dat)

namespace Cert.ReferenceIdeal.Bridge

open Idealize.ShloMosaic.ValueIdx Cert.ReferenceIdeal Cert.ReferenceIdeal.Gen Cert.Lib.MatmulNT

variable (m : (ℓ : Loc nD τ sig) → Buf (Elt Ideal) ℓ) (ρ : Dev nD → PrngReg)

/-- The region finds the flattened input in its first window's array. -/
theorem entry_flat (c : Dev nD) :
    (V m c main_call0_v0 : S8192x1024.Idx → EReal)
      = shapeCast S8192x1024 (m ((c : Thread nD τ).loc main_arg0)) shapeCasts_S16x512x1024_S8192x1024 := by
  show StableHlo.after hostOps0 (fun b => m (c, b)) (Proc.devRef .tc main_call0_v0) = _
  after_results
  rfl

/-- The host line after the region reshapes what the region left. -/
theorem tail_result (c : Dev nD) :
    Pipeline.afterTail₀ cfgs (dats m) 0 (V0 m) [hostOps1] c main_v0
      = Cert.Spec.result shapeCasts_S16x512x1024_S8192x1024 shapeCasts_S8192x1024_S16x512x1024
          (m ((c : Thread nD τ).loc main_arg0)) (m ((c : Thread nD τ).loc main_arg1)) := by
  unfold Pipeline.afterTail₀
  show StableHlo.after hostOps1 _ (Proc.devRef .tc main_v0) = _
  after_results
  have hw : Pipeline.withArrays (cfgs 0).spec c (V0 m c) (fun w => (dats m 0 c).arrAt w (cfgs 0).N)
      (Proc.devRef .tc main_call0_v1) = prod m c :=
    (Pipeline.withArrays_arr spec0 launch0.win.arr_inj c _ _ 2).trans (final m c)
  show shapeCast S16x512x1024 (Pipeline.withArrays (cfgs 0).spec c (V0 m c) (fun w => (dats m 0 c).arrAt w (cfgs 0).N)
      (Proc.devRef .tc main_call0_v1)) shapeCasts_S8192x1024_S16x512x1024 = _
  rw [hw]
  unfold Cert.Spec.result prod
  rw [entry_flat m c, V_main_arg1 m c]

/-- The run, read: the result array at the reshaped product of the flattened input with the transposed weight, both
    arguments unchanged. -/
theorem run : θ_run defs (onTc (τ := τ) (main (F := Ideal))) ⟨m, fun _ => 0, ρ⟩ fun r => ∀ c : Dev nD,
      r.2.mem ((c : Thread nD τ).loc main_v0)
        = Cert.Spec.result shapeCasts_S16x512x1024_S8192x1024 shapeCasts_S8192x1024_S16x512x1024
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v0 (Pipeline.mem_restRefs_of main_v0 (by decide) (by decide))).trans (tail_result m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.ReferenceIdeal.Bridge

end
-- ==== Proof.lean ====
/-
  The kernel and its reference compute the same function on the extended reals.

  Both programs flatten the 16×512×1024 input x to an 8192×1024 matrix x₂, multiply it by the transpose of the 1024×1024
  weight w, and give the product the input's shape back.  The kernel does the product four row blocks of 2048 rows at a
  time against the whole weight (rounding both operands to bf16 on the way into the matrix unit, which on the extended
  reals is the identity); the reference does it in 16 × 2 tiles of 512 × 512, each from 512 rows of x₂ and 512 rows of w.
  In both, every stored entry (r, n) is the sum over the 1024 contracted positions k of  x₂ (r, k) · w (n, k)  taken in
  one piece, the blocks (tiles) fill the result, and so both result arrays are  reshape ((reshape x) · wᵀ) , the same term
  of the arguments.  The two sums are the same sum, term by term and in the same order, so no law of the extended
  reals is used and the finiteness of the inputs is never needed.

  The three frame claims are the generated frame runs; the idealization rewrote nothing, so it is preserved trivially.
-/
import proofs.«117460_g2000609681996289_pallasbulk_431_10_alg».proof.Defs
import proofs.«117460_g2000609681996289_pallasbulk_431_10_alg».proof.Proof.Gen.Kernel
import proofs.«117460_g2000609681996289_pallasbulk_431_10_alg».proof.Proof.Gen.Kernel.Frame
import proofs.«117460_g2000609681996289_pallasbulk_431_10_alg».proof.Proof.Gen.KernelIdeal
import proofs.«117460_g2000609681996289_pallasbulk_431_10_alg».proof.Proof.Gen.KernelIdeal.Frame
import proofs.«117460_g2000609681996289_pallasbulk_431_10_alg».proof.Proof.Gen.ReferenceIdeal
import proofs.«117460_g2000609681996289_pallasbulk_431_10_alg».proof.Proof.Gen.ReferenceIdeal.Frame
import proofs.«117460_g2000609681996289_pallasbulk_431_10_alg».proof.Proof.Gen.Pre_finite_inputs
import proofs.«117460_g2000609681996289_pallasbulk_431_10_alg».proof.Proof.KernelRun
import proofs.«117460_g2000609681996289_pallasbulk_431_10_alg».proof.Proof.ReferenceRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealized kernel is the kernel's own text read on the extended reals: nothing was rewritten. -/
theorem preserves : Cert.preserves_Kernel_KernelIdeal := trivial

/-- From memories that agree on the two arguments both runs end with the result array at
    reshape ((reshape x) · wᵀ)  of those arguments. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Bridge.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
